-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x384 : Shape := ⟨2, ![16384, 384]⟩
abbrev S384x512 : Shape := ⟨2, ![384, 512]⟩
abbrev S512 : Shape := ⟨1, ![512]⟩
abbrev S512x216 : Shape := ⟨2, ![512, 216]⟩
abbrev S216 : Shape := ⟨1, ![216]⟩
abbrev S216x10 : Shape := ⟨2, ![216, 10]⟩
abbrev S10 : Shape := ⟨1, ![10]⟩
abbrev S10x2316 : Shape := ⟨2, ![10, 2316]⟩
abbrev S2316 : Shape := ⟨1, ![2316]⟩
abbrev S_ : Shape := ⟨0, ![]⟩

class Facts : Prop where
  bcast_S_S16384x384 : S_.BroadcastsInDim S16384x384 (![] : Fin 0 → Fin S16384x384.rank)
  reducesTo_S16384x384_S_d0_1 : S16384x384.ReducesTo [0, 1] S_
  h_S_ : 0 < S_.numel
  bcast_S_S384x512 : S_.BroadcastsInDim S384x512 (![] : Fin 0 → Fin S384x512.rank)
  reducesTo_S384x512_S_d0_1 : S384x512.ReducesTo [0, 1] S_
  bcast_S_S512 : S_.BroadcastsInDim S512 (![] : Fin 0 → Fin S512.rank)
  reducesTo_S512_S_d0 : S512.ReducesTo [0] S_
  bcast_S_S512x216 : S_.BroadcastsInDim S512x216 (![] : Fin 0 → Fin S512x216.rank)
  reducesTo_S512x216_S_d0_1 : S512x216.ReducesTo [0, 1] S_
  bcast_S_S216 : S_.BroadcastsInDim S216 (![] : Fin 0 → Fin S216.rank)
  reducesTo_S216_S_d0 : S216.ReducesTo [0] S_
  bcast_S_S216x10 : S_.BroadcastsInDim S216x10 (![] : Fin 0 → Fin S216x10.rank)
  reducesTo_S216x10_S_d0_1 : S216x10.ReducesTo [0, 1] S_
  bcast_S_S10 : S_.BroadcastsInDim S10 (![] : Fin 0 → Fin S10.rank)
  reducesTo_S10_S_d0 : S10.ReducesTo [0] S_
  bcast_S_S10x2316 : S_.BroadcastsInDim S10x2316 (![] : Fin 0 → Fin S10x2316.rank)
  reducesTo_S10x2316_S_d0_1 : S10x2316.ReducesTo [0, 1] S_
  bcast_S_S2316 : S_.BroadcastsInDim S2316 (![] : Fin 0 → Fin S2316.rank)
  reducesTo_S2316_S_d0 : S2316.ReducesTo [0] S_

variable [Facts]

def fn_part2 {F : FTy → Type} [FloatOps F] (main_arg7 : FVec F S10x2316 .f32) (main_arg8 : FVec F S2316 .f32) (main_v33 : IVec S_ 1) : IVec S_ 1 :=
  let main_v34 : FVec F S10x2316 .f32 := Host.absf main_arg7
  let main_cst_12 : FVec F S_ .f32 := constant S_ .f32 0x7F800000#32
  let main_v35 : FVec F S10x2316 .f32 := broadcastInDim S10x2316 ![] bcast_S_S10x2316 main_cst_12
  let main_v36 : IVec S10x2316 1 := cmpf .olt main_v34 main_v35
  let main_c_13 : IVec S_ 1 := constantI S_ 1 1#1
  let main_v37 : IVec S_ 1 := (fun x v => Host.reduce IntOp.andi x v reducesTo_S10x2316_S_d0_1 h_S_) main_v36 main_c_13
  let main_v38 : IVec S_ 1 := andi main_v33 main_v37
  let main_v39 : FVec F S2316 .f32 := Host.absf main_arg8
  let main_cst_14 : FVec F S_ .f32 := constant S_ .f32 0x7F800000#32
  let main_v40 : FVec F S2316 .f32 := broadcastInDim S2316 ![] bcast_S_S2316 main_cst_14
  let main_v41 : IVec S2316 1 := cmpf .olt main_v39 main_v40
  let main_c_15 : IVec S_ 1 := constantI S_ 1 1#1
  let main_v42 : IVec S_ 1 := (fun x v => Host.reduce IntOp.andi x v reducesTo_S2316_S_d0 h_S_) main_v41 main_c_15
  let main_v43 : IVec S_ 1 := andi main_v38 main_v42
  main_v43

def fn_part1 {F : FTy → Type} [FloatOps F] (main_arg4 : FVec F S216 .f32) (main_arg5 : FVec F S216x10 .f32) (main_arg6 : FVec F S10 .f32) (main_arg7 : FVec F S10x2316 .f32) (main_arg8 : FVec F S2316 .f32) (main_v13 : IVec S_ 1) (main_v16 : IVec S512x216 1) : IVec S_ 1 :=
  let main_c_5 : IVec S_ 1 := constantI S_ 1 1#1
  let main_v17 : IVec S_ 1 := (fun x v => Host.reduce IntOp.andi x v reducesTo_S512x216_S_d0_1 h_S_) main_v16 main_c_5
  let main_v18 : IVec S_ 1 := andi main_v13 main_v17
  let main_v19 : FVec F S216 .f32 := Host.absf main_arg4
  let main_cst_6 : FVec F S_ .f32 := constant S_ .f32 0x7F800000#32
  let main_v20 : FVec F S216 .f32 := broadcastInDim S216 ![] bcast_S_S216 main_cst_6
  let main_v21 : IVec S216 1 := cmpf .olt main_v19 main_v20
  let main_c_7 : IVec S_ 1 := constantI S_ 1 1#1
  let main_v22 : IVec S_ 1 := (fun x v => Host.reduce IntOp.andi x v reducesTo_S216_S_d0 h_S_) main_v21 main_c_7
  let main_v23 : IVec S_ 1 := andi main_v18 main_v22
  let main_v24 : FVec F S216x10 .f32 := Host.absf main_arg5
  let main_cst_8 : FVec F S_ .f32 := constant S_ .f32 0x7F800000#32
  let main_v25 : FVec F S216x10 .f32 := broadcastInDim S216x10 ![] bcast_S_S216x10 main_cst_8
  let main_v26 : IVec S216x10 1 := cmpf .olt main_v24 main_v25
  let main_c_9 : IVec S_ 1 := constantI S_ 1 1#1
  let main_v27 : IVec S_ 1 := (fun x v => Host.reduce IntOp.andi x v reducesTo_S216x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg7 main_arg8 main_v33

def fn {F : FTy → Type} [FloatOps F] (main_arg0 : FVec F S16384x384 .f32) (main_arg1 : FVec F S384x512 .f32) (main_arg2 : FVec F S512 .f32) (main_arg3 : FVec F S512x216 .f32) (main_arg4 : FVec F S216 .f32) (main_arg5 : FVec F S216x10 .f32) (main_arg6 : FVec F S10 .f32) (main_arg7 : FVec F S10x2316 .f32) (main_arg8 : FVec F S2316 .f32) : IVec S_ 1 :=
  let main_v0 : FVec F S16384x384 .f32 := Host.absf main_arg0
  let main_cst : FVec F S_ .f32 := constant S_ .f32 0x7F800000#32
  let main_v1 : FVec F S16384x384 .f32 := broadcastInDim S16384x384 ![] bcast_S_S16384x384 main_cst
  let main_v2 : IVec S16384x384 1 := cmpf .olt main_v0 main_v1
  let main_c : IVec S_ 1 := constantI S_ 1 1#1
  let main_v3 : IVec S_ 1 := (fun x v => Host.reduce IntOp.andi x v reducesTo_S16384x384_S_d0_1 h_S_) main_v2 main_c
  let main_v4 : FVec F S384x512 .f32 := Host.absf main_arg1
  let main_cst_0 : FVec F S_ .f32 := constant S_ .f32 0x7F800000#32
  let main_v5 : FVec F S384x512 .f32 := broadcastInDim S384x512 ![] bcast_S_S384x512 main_cst_0
  let main_v6 : IVec S384x512 1 := cmpf .olt main_v4 main_v5
  let main_c_1 : IVec S_ 1 := constantI S_ 1 1#1
  let main_v7 : IVec S_ 1 := (fun x v => Host.reduce IntOp.andi x v reducesTo_S384x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x216 .f32 := Host.absf main_arg3
  let main_cst_4 : FVec F S_ .f32 := constant S_ .f32 0x7F800000#32
  let main_v15 : FVec F S512x216 .f32 := broadcastInDim S512x216 ![] bcast_S_S512x216 main_cst_4
  let main_v16 : IVec S512x216 1 := cmpf .olt main_v14 main_v15
  fn_part1 (F := F) main_arg4 main_arg5 main_arg6 main_arg7 main_arg8 main_v13 main_v16
-- ==== Kernel.lean ====
abbrev S16384x384 : Shape := ⟨2, ![16384, 384]⟩
abbrev S384x512 : Shape := ⟨2, ![384, 512]⟩
abbrev S512 : Shape := ⟨1, ![512]⟩
abbrev S512x216 : Shape := ⟨2, ![512, 216]⟩
abbrev S216 : Shape := ⟨1, ![216]⟩
abbrev S216x10 : Shape := ⟨2, ![216, 10]⟩
abbrev S10 : Shape := ⟨1, ![10]⟩
abbrev S10x2316 : Shape := ⟨2, ![10, 2316]⟩
abbrev S2316 : Shape := ⟨1, ![2316]⟩
abbrev S1x512 : Shape := ⟨2, ![1, 512]⟩
abbrev S1x216 : Shape := ⟨2, ![1, 216]⟩
abbrev S1x10 : Shape := ⟨2, ![1, 10]⟩
abbrev S1x2316 : Shape := ⟨2, ![1, 2316]⟩
abbrev S16384x2316 : Shape := ⟨2, ![16384, 2316]⟩
abbrev S1024x384 : Shape := ⟨2, ![1024, 384]⟩
abbrev S1024x2316 : Shape := ⟨2, ![1024, 2316]⟩
abbrev S1024x512 : Shape := ⟨2, ![1024, 512]⟩
abbrev S1024x216 : Shape := ⟨2, ![1024, 216]⟩
abbrev S1024x10 : Shape := ⟨2, ![1024, 10]⟩
abbrev S10x1280 : Shape := ⟨2, ![10, 1280]⟩
abbrev S1x1280 : Shape := ⟨2, ![1, 1280]⟩
abbrev S1024x1280 : Shape := ⟨2, ![1024, 1280]⟩
abbrev S10x1036 : Shape := ⟨2, ![10, 1036]⟩
abbrev S1x1036 : Shape := ⟨2, ![1, 1036]⟩
abbrev S1024x1036 : Shape := ⟨2, ![1024, 1036]⟩

abbrev nBuf : Space → Nat
  | .hbm => 18
  | .vmem => 12
  | .smem => 0
  | _ => 0

abbrev bufTy : (tb : Table) → Fin (tcTables nBuf tb) → BufTy
  | .hbm, ⟨0, _⟩ => ⟨S16384x384, .f32⟩
  | .hbm, ⟨1, _⟩ => ⟨S384x512, .f32⟩
  | .hbm, ⟨2, _⟩ => ⟨S512, .f32⟩
  | .hbm, ⟨3, _⟩ => ⟨S512x216, .f32⟩
  | .hbm, ⟨4, _⟩ => ⟨S216, .f32⟩
  | .hbm, ⟨5, _⟩ => ⟨S216x10, .f32⟩
  | .hbm, ⟨6, _⟩ => ⟨S10, .f32⟩
  | .hbm, ⟨7, _⟩ => ⟨S10x2316, .f32⟩
  | .hbm, ⟨8, _⟩ => ⟨S2316, .f32⟩
  | .hbm, ⟨9, _⟩ => ⟨S384x512, .bf16⟩
  | .hbm, ⟨10, _⟩ => ⟨S512x216, .bf16⟩
  | .hbm, ⟨11, _⟩ => ⟨S216x10, .bf16⟩
  | .hbm, ⟨12, _⟩ => ⟨S10x2316, .bf16⟩
  | .hbm, ⟨13, _⟩ => ⟨S1x512, .f32⟩
  | .hbm, ⟨14, _⟩ => ⟨S1x216, .f32⟩
  | .hbm, ⟨15, _⟩ => ⟨S1x10, .f32⟩
  | .hbm, ⟨16, _⟩ => ⟨S1x2316, .f32⟩
  | .hbm, ⟨17, _⟩ => ⟨S16384x2316, .f32⟩
  | .local _ .vmem, ⟨0, _⟩ => ⟨S1024x384, .f32⟩
  | .local _ .vmem, ⟨1, _⟩ => ⟨S1024x384, .f32⟩
  | .local _ .vmem, ⟨2, _⟩ => ⟨S384x512, .bf16⟩
  | .local _ .vmem, ⟨3, _⟩ => ⟨S1x512, .f32⟩
  | .local _ .vmem, ⟨4, _⟩ => ⟨S512x216, .bf16⟩
  | .local _ .vmem, ⟨5, _⟩ => ⟨S1x216, .f32⟩
  | .local _ .vmem, ⟨6, _⟩ => ⟨S216x10, .bf16⟩
  | .local _ .vmem, ⟨7, _⟩ => ⟨S1x10, .f32⟩
  | .local _ .vmem, ⟨8, _⟩ => ⟨S10x2316, .bf16⟩
  | .local _ .vmem, ⟨9, _⟩ => ⟨S1x2316, .f32⟩
  | .local _ .vmem, ⟨10, _⟩ => ⟨S1024x2316, .f32⟩
  | .local _ .vmem, ⟨11, _⟩ => ⟨S1024x2316, .f32⟩
  | _, _ => ⟨S16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x216 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S216x10 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x2316 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2316 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x2316 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S512_S1x512 : S512.ShapeCasts S1x512
  shapeCasts_S216_S1x216 : S216.ShapeCasts S1x216
  shapeCasts_S10_S1x10 : S10.ShapeCasts S1x10
  shapeCasts_S2316_S1x2316 : S2316.ShapeCasts S1x2316
  inb_S1024x384_S1024x384_0_0 : ∀ a, (![0, 0] : Fin 2 → Nat) a + S1024x384.size a ≤ S1024x384.size a
  h_S1024x384 : 0 < S1024x384.numel
  inb_S384x512_S384x512_0_0 : ∀ a, (![0, 0] : Fin 2 → Nat) a + S384x512.size a ≤ S384x512.size a
  h_S384x512 : 0 < S384x512.numel
  shapeCasts_S384x512_S384x512 : S384x512.ShapeCasts S384x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x216_S512x216_0_0 : ∀ a, (![0, 0] : Fin 2 → Nat) a + S512x216.size a ≤ S512x216.size a
  h_S512x216 : 0 < S512x216.numel
  shapeCasts_S512x216_S512x216 : S512x216.ShapeCasts S512x216
  inb_S1x216_S1x216_0_0 : ∀ a, (![0, 0] : Fin 2 → Nat) a + S1x216.size a ≤ S1x216.size a
  h_S1x216 : 0 < S1x216.numel
  shapeCasts_S1x216_S1x216 : S1x216.ShapeCasts S1x216
  broadcasts_S1x216_S1024x216 : S1x216.Broadcasts S1024x216
  inb_S216x10_S216x10_0_0 : ∀ a, (![0, 0] : Fin 2 → Nat) a + S216x10.size a ≤ S216x10.size a
  h_S216x10 : 0 < S216x10.numel
  shapeCasts_S216x10_S216x10 : S216x10.ShapeCasts S216x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  inb_S10x2316_S10x1280_0_0 : ∀ a, (![0, 0] : Fin 2 → Nat) a + S10x1280.size a ≤ S10x2316.size a
  h_S10x1280 : 0 < S10x1280.numel
  shapeCasts_S10x1280_S10x1280 : S10x1280.ShapeCasts S10x1280
  inb_S1x2316_S1x1280_0_0 : ∀ a, (![0, 0] : Fin 2 → Nat) a + S1x1280.size a ≤ S1x2316.size a
  h_S1x1280 : 0 < S1x1280.numel
  shapeCasts_S1x1280_S1x1280 : S1x1280.ShapeCasts S1x1280
  broadcasts_S1x1280_S1024x1280 : S1x1280.Broadcasts S1024x1280
  inb_S1024x2316_S1024x1280_0_0 : ∀ a, (![0, 0] : Fin 2 → Nat) a + S1024x1280.size a ≤ S1024x2316.size a
  h_S1024x1280 : 0 < S1024x1280.numel
  inb_S10x2316_S10x1036_0_1280 : ∀ a, (![0, 1280] : Fin 2 → Nat) a + S10x1036.size a ≤ S10x2316.size a
  h_S10x1036 : 0 < S10x1036.numel
  shapeCasts_S10x1036_S10x1036 : S10x1036.ShapeCasts S10x1036
  inb_S1x2316_S1x1036_0_1280 : ∀ a, (![0, 1280] : Fin 2 → Nat) a + S1x1036.size a ≤ S1x2316.size a
  h_S1x1036 : 0 < S1x1036.numel
  shapeCasts_S1x1036_S1x1036 : S1x1036.ShapeCasts S1x1036
  broadcasts_S1x1036_S1024x1036 : S1x1036.Broadcasts S1024x1036
  inb_S1024x2316_S1024x1036_0_1280 : ∀ a, (![0, 1280] : Fin 2 → Nat) a + S1024x1036.size a ≤ S1024x2316.size a
  h_S1024x1036 : 0 < S1024x1036.numel
  dot_S1024x384_S384x512_S1024x512_1_0_0_1_n_n_wf : DotDims.WF S1024x384 S384x512 S1024x512 [1] [0] [0] [1] [] []
  dot_S1024x512_S512x216_S1024x216_1_0_0_1_n_n_wf : DotDims.WF S1024x512 S512x216 S1024x216 [1] [0] [0] [1] [] []
  dot_S1024x216_S216x10_S1024x10_1_0_0_1_n_n_wf : DotDims.WF S1024x216 S216x10 S1024x10 [1] [0] [0] [1] [] []
  dot_S1024x10_S10x1280_S1024x1280_1_0_0_1_n_n_wf : DotDims.WF S1024x10 S10x1280 S1024x1280 [1] [0] [0] [1] [] []
  dot_S1024x10_S10x1036_S1024x1036_1_0_0_1_n_n_wf : DotDims.WF S1024x10 S10x1036 S1024x1036 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x384.size a ≤ S16384x384.size a
  hwx0_0 : ∀ i : grid0.Coords, EltTy.bits .f32 = 32 ∨ (Rect.block (s := S16384x384) S1024x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x512.size a ≤ S384x512.size a
  hwx0_1 : ∀ i : grid0.Coords, EltTy.bits .bf16 = 32 ∨ (Rect.block (s := S384x512) S384x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x216.size a ≤ S512x216.size a
  hwx0_3 : ∀ i : grid0.Coords, EltTy.bits .bf16 = 32 ∨ (Rect.block (s := S512x216) S512x216.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x216.size a ≤ S1x216.size a
  hwx0_4 : ∀ i : grid0.Coords, EltTy.bits .f32 = 32 ∨ (Rect.block (s := S1x216) S1x216.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S216x10.size a ≤ S216x10.size a
  hwx0_5 : ∀ i : grid0.Coords, EltTy.bits .bf16 = 32 ∨ (Rect.block (s := S216x10) S216x10.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x10.size a ≤ S1x10.size a
  hwx0_6 : ∀ i : grid0.Coords, EltTy.bits .f32 = 32 ∨ (Rect.block (s := S1x10) S1x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x2316.size a ≤ S10x2316.size a
  hwx0_7 : ∀ i : grid0.Coords, EltTy.bits .bf16 = 32 ∨ (Rect.block (s := S10x2316) S10x2316.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2316.size a ≤ S1x2316.size a
  hwx0_8 : ∀ i : grid0.Coords, EltTy.bits .f32 = 32 ∨ (Rect.block (s := S1x2316) S1x2316.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x2316.size a ≤ S16384x2316.size a
  hwx0_9 : ∀ i : grid0.Coords, EltTy.bits .f32 = 32 ∨ (Rect.block (s := S16384x2316) S1024x2316.size (cc0_transform_9 i) (hinb0_9 i)).WholeWords (EltTy.packing .f32)

variable [Facts₀]

def dot_S1024x384_S384x512_S1024x512_1_0_0_1_n_n : DotDims S1024x384 S384x512 S1024x512 where
  lhsContracting := [1]
  rhsContracting := [0]
  lhsNonContracting := [0]
  rhsNonContracting := [1]
  lhsBatch := []
  rhsBatch := []
  wf := dot_S1024x384_S384x512_S1024x512_1_0_0_1_n_n_wf
def dot_S1024x512_S512x216_S1024x216_1_0_0_1_n_n : DotDims S1024x512 S512x216 S1024x216 where
  lhsContracting := [1]
  rhsContracting := [0]
  lhsNonContracting := [0]
  rhsNonContracting := [1]
  lhsBatch := []
  rhsBatch := []
  wf := dot_S1024x512_S512x216_S1024x216_1_0_0_1_n_n_wf
def dot_S1024x216_S216x10_S1024x10_1_0_0_1_n_n : DotDims S1024x216 S216x10 S1024x10 where
  lhsContracting := [1]
  rhsContracting := [0]
  lhsNonContracting := [0]
  rhsNonContracting := [1]
  lhsBatch := []
  rhsBatch := []
  wf := dot_S1024x216_S216x10_S1024x10_1_0_0_1_n_n_wf
def dot_S1024x10_S10x1280_S1024x1280_1_0_0_1_n_n : DotDims S1024x10 S10x1280 S1024x1280 where
  lhsContracting := [1]
  rhsContracting := [0]
  lhsNonContracting := [0]
  rhsNonContracting := [1]
  lhsBatch := []
  rhsBatch := []
  wf := dot_S1024x10_S10x1280_S1024x1280_1_0_0_1_n_n_wf
def dot_S1024x10_S10x1036_S1024x1036_1_0_0_1_n_n : DotDims S1024x10 S10x1036 S1024x1036 where
  lhsContracting := [1]
  rhsContracting := [0]
  lhsNonContracting := [0]
  rhsNonContracting := [1]
  lhsBatch := []
  rhsBatch := []
  wf := dot_S1024x10_S10x1036_S1024x1036_1_0_0_1_n_n_wf

abbrev win0_0 : Pipeline.Window sig grid0 :=
  Pipeline.Window.ofSpec (Memref.whole main_arg0) S1024x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S384x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x216.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x216.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S216x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S10x2316.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x2316.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1024x2316.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x384 : Shape := ⟨2, ![16384, 384]⟩
abbrev S384x512 : Shape := ⟨2, ![384, 512]⟩
abbrev S512 : Shape := ⟨1, ![512]⟩
abbrev S512x216 : Shape := ⟨2, ![512, 216]⟩
abbrev S216 : Shape := ⟨1, ![216]⟩
abbrev S216x10 : Shape := ⟨2, ![216, 10]⟩
abbrev S10 : Shape := ⟨1, ![10]⟩
abbrev S10x2316 : Shape := ⟨2, ![10, 2316]⟩
abbrev S2316 : Shape := ⟨1, ![2316]⟩
abbrev S16384x512 : Shape := ⟨2, ![16384, 512]⟩
abbrev S1x512 : Shape := ⟨2, ![1, 512]⟩
abbrev S_ : Shape := ⟨0, ![]⟩
abbrev S16384x216 : Shape := ⟨2, ![16384, 216]⟩
abbrev S1x216 : Shape := ⟨2, ![1, 216]⟩
abbrev S16384x10 : Shape := ⟨2, ![16384, 10]⟩
abbrev S1x10 : Shape := ⟨2, ![1, 10]⟩
abbrev S16384x2316 : Shape := ⟨2, ![16384, 2316]⟩
abbrev S1x2316 : Shape := ⟨2, ![1, 2316]⟩

abbrev nBuf : Space → Nat
  | .hbm => 34
  | .vmem => 0
  | .smem => 0
  | _ => 0

abbrev bufTy : (tb : Table) → Fin (tcTables nBuf tb) → BufTy
  | .hbm, ⟨0, _⟩ => ⟨S16384x384, .f32⟩
  | .hbm, ⟨1, _⟩ => ⟨S384x512, .f32⟩
  | .hbm, ⟨2, _⟩ => ⟨S512, .f32⟩
  | .hbm, ⟨3, _⟩ => ⟨S512x216, .f32⟩
  | .hbm, ⟨4, _⟩ => ⟨S216, .f32⟩
  | .hbm, ⟨5, _⟩ => ⟨S216x10, .f32⟩
  | .hbm, ⟨6, _⟩ => ⟨S10, .f32⟩
  | .hbm, ⟨7, _⟩ => ⟨S10x2316, .f32⟩
  | .hbm, ⟨8, _⟩ => ⟨S2316, .f32⟩
  | .hbm, ⟨9, _⟩ => ⟨S16384x512, .f32⟩
  | .hbm, ⟨10, _⟩ => ⟨S1x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S16384x216, .f32⟩
  | .hbm, ⟨17, _⟩ => ⟨S1x216, .f32⟩
  | .hbm, ⟨18, _⟩ => ⟨S16384x216, .f32⟩
  | .hbm, ⟨19, _⟩ => ⟨S16384x216, .f32⟩
  | .hbm, ⟨20, _⟩ => ⟨S_, .f32⟩
  | .hbm, ⟨21, _⟩ => ⟨S16384x216, .f32⟩
  | .hbm, ⟨22, _⟩ => ⟨S16384x216, .f32⟩
  | .hbm, ⟨23, _⟩ => ⟨S16384x10, .f32⟩
  | .hbm, ⟨24, _⟩ => ⟨S1x10, .f32⟩
  | .hbm, ⟨25, _⟩ => ⟨S16384x10, .f32⟩
  | .hbm, ⟨26, _⟩ => ⟨S16384x10, .f32⟩
  | .hbm, ⟨27, _⟩ => ⟨S_, .f32⟩
  | .hbm, ⟨28, _⟩ => ⟨S16384x10, .f32⟩
  | .hbm, ⟨29, _⟩ => ⟨S16384x10, .f32⟩
  | .hbm, ⟨30, _⟩ => ⟨S16384x2316, .f32⟩
  | .hbm, ⟨31, _⟩ => ⟨S1x2316, .f32⟩
  | .hbm, ⟨32, _⟩ => ⟨S16384x2316, .f32⟩
  | .hbm, ⟨33, _⟩ => ⟨S16384x2316, .f32⟩
  | _, _ => ⟨S16384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S216_S1x216_1 : S216.BroadcastsInDim S1x216 (![1] : Fin 1 → Fin S1x216.rank)
  bcast_S1x216_S16384x216_0_1 : S1x216.BroadcastsInDim S16384x216 (![0, 1] : Fin 2 → Fin S16384x216.rank)
  bcast_S_S16384x216 : S_.BroadcastsInDim S16384x216 (![] : Fin 0 → Fin S16384x216.rank)
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  bcast_S_S16384x10 : S_.BroadcastsInDim S16384x10 (![] : Fin 0 → Fin S16384x10.rank)
  bcast_S2316_S1x2316_1 : S2316.BroadcastsInDim S1x2316 (![1] : Fin 1 → Fin S1x2316.rank)
  bcast_S1x2316_S16384x2316_0_1 : S1x2316.BroadcastsInDim S16384x2316 (![0, 1] : Fin 2 → Fin S16384x2316.rank)
  dot_S16384x384_S384x512_S16384x512_1_0_0_1_n_n_wf : DotDims.WF S16384x384 S384x512 S16384x512 [1] [0] [0] [1] [] []
  dot_S16384x512_S512x216_S16384x216_1_0_0_1_n_n_wf : DotDims.WF S16384x512 S512x216 S16384x216 [1] [0] [0] [1] [] []
  dot_S16384x216_S216x10_S16384x10_1_0_0_1_n_n_wf : DotDims.WF S16384x216 S216x10 S16384x10 [1] [0] [0] [1] [] []
  dot_S16384x10_S10x2316_S16384x2316_1_0_0_1_n_n_wf : DotDims.WF S16384x10 S10x2316 S16384x2316 [1] [0] [0] [1] [] []

variable [Facts₀]

def dot_S16384x384_S384x512_S16384x512_1_0_0_1_n_n : DotDims S16384x384 S384x512 S16384x512 where
  lhsContracting := [1]
  rhsContracting := [0]
  lhsNonContracting := [0]
  rhsNonContracting := [1]
  lhsBatch := []
  rhsBatch := []
  wf := dot_S16384x384_S384x512_S16384x512_1_0_0_1_n_n_wf
def dot_S16384x512_S512x216_S16384x216_1_0_0_1_n_n : DotDims S16384x512 S512x216 S16384x216 where
  lhsContracting := [1]
  rhsContracting := [0]
  lhsNonContracting := [0]
  rhsNonContracting := [1]
  lhsBatch := []
  rhsBatch := []
  wf := dot_S16384x512_S512x216_S16384x216_1_0_0_1_n_n_wf
def dot_S16384x216_S216x10_S16384x10_1_0_0_1_n_n : DotDims S16384x216 S216x10 S16384x10 where
  lhsContracting := [1]
  rhsContracting := [0]
  lhsNonContracting := [0]
  rhsNonContracting := [1]
  lhsBatch := []
  rhsBatch := []
  wf := dot_S16384x216_S216x10_S16384x10_1_0_0_1_n_n_wf
def dot_S16384x10_S10x2316_S16384x2316_1_0_0_1_n_n : DotDims S16384x10 S10x2316 S16384x2316 where
  lhsContracting := [1]
  rhsContracting := [0]
  lhsNonContracting := [0]
  rhsNonContracting := [1]
  lhsBatch := []
  rhsBatch := []
  wf := dot_S16384x10_S10x2316_S16384x2316_1_0_0_1_n_n_wf

class Facts : Prop extends Facts₀ where

variable [Facts]
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.LibDenseLayer.lean ====
/-
  A dense layer on the extended reals, and its reading at an entry on the matrix unit.

  The specification (namespace Cert.Bridge.Spec): for a matrix A with rows p and features k, weights W and a bias b,
  the unclamped layer's entry (p, q) is the sum over k of A[p, k] · W[k, q], plus b[q]; a hidden layer clamps that entry
  below at the zero word's value. Row p of either depends on row p of A alone, so re-indexing the rows of the input
  re-indexes the rows of the output (by unfolding): a block of rows can be computed on its own. Any row count, any
  widths.

  The reading (namespace Cert.Bridge.LayerAt): a matrix unit's product of an M × K by a K × N operand into a zero
  accumulator, plus a [1, N] bias row spread over the M rows, read at entry (p, q), is the unclamped layer over the
  operands' entries; with a clamp against a splat of the zero word it is the hidden layer; and followed by the change
  of float format that usually comes next (the identity on the extended reals) it is, as a whole matrix, the hidden
  layer of the operands' matrices, which is the form that lets consecutive layers be chained by congruence. Nothing
  here assumes finiteness: only the reading of a sum at its index.
-/
import proofs.«122354_j26766236189308_2_alg».proof.Proof.LibMatmul
import Idealize.ShloMosaic.PureOps.Ideal
import Idealize.ShloMosaic.Lib.ValueIdx
import Idealize.ShloMosaic.Lib.ValueLayout

noncomputable section

open scoped BigOperators

namespace Cert.Bridge.Spec

open Idealize.ShloMosaic

variable {M M' K N : Nat}

/-- The clamp's floor: the extended real the zero word of f32 denotes. -/
abbrev floor0 : EReal := Ideal.ofBits .f32 0x00000000#32

/-- The unclamped layer: entry (p, q) is the contraction of row p of A with column q of W, plus b[q]. -/
def head (A : Fin M → Fin K → EReal) (W : Fin K → Fin N → EReal) (b : Fin N → EReal) (p : Fin M) (q : Fin N) : EReal :=
  (∑ k : Fin K, A p k * W k q) + b q

/-- A hidden layer: the unclamped layer's entry, clamped below at the floor. -/
def layer (A : Fin M → Fin K → EReal) (W : Fin K → Fin N → EReal) (b : Fin N → EReal) (p : Fin M) (q : Fin N) : EReal :=
  max (head A W b p q) floor0

/-- Row p of a layer's output is a function of row p of its input alone: re-indexing the rows commutes with the layer. -/
theorem head_rows (σ : Fin M' → Fin M) (A : Fin M → Fin K → EReal) (W : Fin K → Fin N → EReal) (b : Fin N → EReal) :
    head (fun r => A (σ r)) W b = fun r => head A W b (σ r) := rfl

/-- The same for a hidden layer: the clamp acts entry by entry. -/
theorem layer_rows (σ : Fin M' → Fin M) (A : Fin M → Fin K → EReal) (W : Fin K → Fin N → EReal) (b : Fin N → EReal) :
    layer (fun r => A (σ r)) W b = fun r => layer A W b (σ r) := rfl

end Cert.Bridge.Spec

namespace Cert.Bridge.LayerAt

open Idealize.ShloMosaic Idealize.ShloMosaic.ValueIdx Cert.Bridge

variable {M K N : Nat}

/-- A matrix as a function of its two coordinates. (On the extended reals every element type is the same
    set, so the matrix is taken as a plain function of its index.) -/
abbrev mat (A : (⟨2, ![M, K]⟩ : Shape).Idx → EReal) : Fin M → Fin K → EReal := fun p k => A (ix2 p k)

/-- A one-row matrix as a function of its column. -/
abbrev row (b : (⟨2, ![1, N]⟩ : Shape).Idx → EReal) : Fin N → EReal := fun q => b (ix2 (0 : Fin 1) q)

/-- The unclamped layer on the matrix unit: product into zero plus the spread bias row. -/
theorem head_apply {φ₁ φ₂ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    addf (FloatOps.matmul (DotDims.plain M K N) prec A W (constant ⟨2, ![M, N]⟩ .f32 0x00000000#32))
        (broadcastTo ⟨2, ![M, N]⟩ b hb) (ix2 p q)
      = Spec.head (mat A) (mat W) (row b) p q := by
  rw [addf_apply, LibMatmul.matmul_zero_apply, broadcastTo_1b_ab_apply]
  rfl

/-- A hidden layer on the matrix unit: the unclamped layer, clamped against a splat of the zero word. The splat's
    scalar and the specification's floor are the same extended real, the one the zero word denotes. -/
theorem layer_apply {φ₁ φ₂ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    maximumf (addf (FloatOps.matmul (DotDims.plain M K N) prec A W (constant ⟨2, ![M, N]⟩ .f32 0x00000000#32))
        (broadcastTo ⟨2, ![M, N]⟩ b hb))
        (broadcast ⟨2, ![M, N]⟩ (Scalar.ofBits (F := Ideal) .f32 0x00000000#32)) (ix2 p q)
      = Spec.layer (mat A) (mat W) (row b) p q := by
  rw [maximumf_apply, head_apply, broadcast_apply]
  rfl

/-- The same, for the whole matrix at once and after the change of format that follows a hidden layer (the identity on
    the extended reals): the next layer's input matrix is the specification's layer of this layer's operands. -/
theorem layer_mat {φ₁ φ₂ ψ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (hψ : ψ.bits < FTy.f32.bits) :
    mat (truncf ψ (maximumf (addf (FloatOps.matmul (DotDims.plain M K N) prec A W (constant ⟨2, ![M, N]⟩ .f32 0x00000000#32))
        (broadcastTo ⟨2, ![M, N]⟩ b hb))
        (broadcast ⟨2, ![M, N]⟩ (Scalar.ofBits (F := Ideal) .f32 0x00000000#32))) hψ)
      = Spec.layer (mat A) (mat W) (row b) :=
  funext fun p => funext fun q => layer_apply prec A W b hb p q

end Cert.Bridge.LayerAt

end
-- ==== Proof.Spec.lean ====
/-
  The network as one function of its arguments, entry by entry, on the extended reals.

  The network is three hidden layers, 384 → 512 → 216 → 10 (each a product, a bias and a clamp below at zero), followed
  by one unclamped layer (the head), 10 → 2316. Every entry of a layer's output depends on ONE row of its input, so the
  network on a re-indexed set of rows is the network's rows, re-indexed: this is what lets a block of rows be computed
  on its own. The row count M is a parameter so that the same definition reads a block of rows and the whole array.
-/
import proofs.«122354_j26766236189308_2_alg».proof.Proof.LibDenseLayer

noncomputable section

namespace Cert.Bridge.Spec

open Idealize.ShloMosaic

variable {M M' : Nat}

/-- The features: three hidden layers, 384 → 512 → 216 → 10. -/
def feat (x : Fin M → Fin 384 → EReal) (W1 : Fin 384 → Fin 512 → EReal) (b1 : Fin 512 → EReal)
    (W2 : Fin 512 → Fin 216 → EReal) (b2 : Fin 216 → EReal) (W3 : Fin 216 → Fin 10 → EReal) (b3 : Fin 10 → EReal) :
    Fin M → Fin 10 → EReal :=
  layer (layer (layer x W1 b1) W2 b2) W3 b3

/-- The network: the head over the features, 10 → 2316. -/
def mlp (x : Fin M → Fin 384 → EReal) (W1 : Fin 384 → Fin 512 → EReal) (b1 : Fin 512 → EReal)
    (W2 : Fin 512 → Fin 216 → EReal) (b2 : Fin 216 → EReal) (W3 : Fin 216 → Fin 10 → EReal) (b3 : Fin 10 → EReal)
    (Wh : Fin 10 → Fin 2316 → EReal) (bh : Fin 2316 → EReal) : Fin M → Fin 2316 → EReal :=
  head (feat x W1 b1 W2 b2 W3 b3) Wh bh

/-- The network on a re-indexed set of rows is the network's rows, re-indexed. -/
theorem mlp_rows (σ : Fin M' → Fin M) (x : Fin M → Fin 384 → EReal) (W1 : Fin 384 → Fin 512 → EReal) (b1 : Fin 512 → EReal)
    (W2 : Fin 512 → Fin 216 → EReal) (b2 : Fin 216 → EReal) (W3 : Fin 216 → Fin 10 → EReal) (b3 : Fin 10 → EReal)
    (Wh : Fin 10 → Fin 2316 → EReal) (bh : Fin 2316 → EReal) :
    mlp (fun r => x (σ r)) W1 b1 W2 b2 W3 b3 Wh bh = fun r => mlp x W1 b1 W2 b2 W3 b3 Wh bh (σ r) := rfl

end Cert.Bridge.Spec

end
-- ==== Proof.Payload.lean ====
/-
  The body's arithmetic, read at an entry.

  The body computes, from the blocks it loads: the features of its 1024 rows (three hidden layers, each a product on
  the matrix unit into zero, a spread bias row and a clamp at zero, with a change of format after each that is the
  identity on the extended reals), and then the head in two column chunks, each a product of the features with a
  column slice of the head's weights plus the matching slice of its bias. Each is the specification's layer over the
  entries of the loaded blocks; a cast of a vector to its own shape is the identity and is removed first.
-/
import proofs.«122354_j26766236189308_2_alg».proof.Proof.Gen.KernelIdeal.Skeleton
import proofs.«122354_j26766236189308_2_alg».proof.Proof.Spec
import Idealize.ShloMosaic.Lib.Pipeline.Value

noncomputable section

namespace Cert.KernelIdeal.Payload

open Cert.KernelIdeal Cert.KernelIdeal.Gen Idealize.ShloMosaic Idealize.ShloMosaic.ValueIdx
open Cert.Bridge Cert.Bridge.LayerAt

/-- The recast of the first head slice is the slice. -/
theorem pay4_eq (v32 : Vec Ideal S10x1280 .bf16) : k0_pay4 (F := Ideal) v32 = v32 := by
  unfold k0_pay4
  exact shapeCast_self v32 shapeCasts_S10x1280_S10x1280

/-- The first head chunk at (r, q): row r of the features against column q of the slice, plus the slice's bias at q. -/
theorem pay1_apply (v31 : FVec Ideal S1024x10 .bf16) (v33 : FVec Ideal S10x1280 .bf16) (v34 : Vec Ideal S1x1280 .f32)
    (r : Fin 1024) (q : Fin 1280) :
    k0_pay1 (F := Ideal) v31 v33 v34 (ix2 r q) = Spec.head (mat v31) (mat v33) (row v34) r q := by
  unfold k0_pay1
  refine (congrArg (fun b => addf (matmul dot_S1024x10_S10x1280_S1024x1280_1_0_0_1_n_n none v31 v33 (constant S1024x1280 .f32 0x00000000#32))
    (broadcastTo S1024x1280 b broadcasts_S1x1280_S1024x1280) (ix2 r q)) (shapeCast_self v34 shapeCasts_S1x1280_S1x1280)).trans ?_
  exact head_apply none v31 v33 v34 broadcasts_S1x1280_S1024x1280 r q

/-- The second head chunk at (r, q), over the second slices. -/
theorem pay2_apply (v31 : FVec Ideal S1024x10 .bf16) (v40 : Vec Ideal S10x1036 .bf16) (v42 : Vec Ideal S1x1036 .f32)
    (r : Fin 1024) (q : Fin 1036) :
    k0_pay2 (F := Ideal) v31 v40 v42 (ix2 r q) = Spec.head (mat v31) (mat v40) (row v42) r q := by
  unfold k0_pay2
  rw [shapeCast_self v40 shapeCasts_S10x1036_S10x1036, shapeCast_self v42 shapeCasts_S1x1036_S1x1036]
  exact head_apply none v31 v40 v42 broadcasts_S1x1036_S1024x1036 r q

/-- The features, as a matrix: the three hidden layers of the specification over the loaded blocks' entries. -/
theorem pay3_mat (v0 : Vec Ideal S1024x384 .f32) (v2 : Vec Ideal S384x512 .bf16) (v5 : Vec Ideal S1x512 .f32)
    (v12 : Vec Ideal S512x216 .bf16) (v15 : Vec Ideal S1x216 .f32) (v22 : Vec Ideal S216x10 .bf16) (v25 : Vec Ideal S1x10 .f32) :
    mat (k0_pay3 (F := Ideal) v0 v2 v5 v12 v15 v22 v25)
      = Spec.feat (mat v0) (mat v2) (row v5) (mat v12) (row v15) (mat v22) (row v25) := by
  unfold k0_pay3 Spec.feat
  rw [shapeCast_self v2 shapeCasts_S384x512_S384x512, shapeCast_self v5 shapeCasts_S1x512_S1x512,
    shapeCast_self v12 shapeCasts_S512x216_S512x216, shapeCast_self v15 shapeCasts_S1x216_S1x216,
    shapeCast_self v22 shapeCasts_S216x10_S216x10, shapeCast_self v25 shapeCasts_S1x10_S1x10]
  refine (layer_mat none _ v22 v25 broadcasts_S1x10_S1024x10 bitsLt_bf16_f32).trans ?_
  refine congrArg (fun A => Spec.layer A (mat v22) (row v25)) ?_
  refine (layer_mat none _ v12 v15 broadcasts_S1x216_S1024x216 bitsLt_bf16_f32).trans ?_
  refine congrArg (fun A => Spec.layer A (mat v12) (row v15)) ?_
  exact layer_mat none (truncf .bf16 v0 bitsLt_bf16_f32) v2 v5 broadcasts_S1x512_S1024x512 bitsLt_bf16_f32

end Cert.KernelIdeal.Payload

end
-- ==== Proof.Pieces.lean ====
/-
  A block of the result, from the two column chunks the body stores.

  The body stores the head in two chunks of columns, [0, 1280) and [1280, 2316). Chunk by chunk the stored value at
  local entry (r, q) is the head over the matching column slices of the head's weights and bias; a column slice read
  at local column q is the full array read at column (offset + q), so each chunk is the block's network
  (the specification on the block's 1024 rows) read at the chunk's own place in the block: row r, column offset + q.
-/
import proofs.«122354_j26766236189308_2_alg».proof.Proof.Payload
import Idealize.ShloMosaic.Lib.Pipeline.FrameBody

noncomputable section

open scoped BigOperators

namespace Cert.KernelIdeal.Pieces

open Cert.KernelIdeal Cert.KernelIdeal.Gen Idealize.ShloMosaic Idealize.ShloMosaic.ValueIdx
open Cert.Bridge Cert.Bridge.LayerAt Cert.KernelIdeal.Payload

/-- The network on the block's 1024 rows, as a function of the block's index. -/
def blockG (x0 : Vec Ideal S1024x384 .f32) (x1 : Vec Ideal S384x512 .bf16) (x2 : Vec Ideal S1x512 .f32)
    (x3 : Vec Ideal S512x216 .bf16) (x4 : Vec Ideal S1x216 .f32) (x5 : Vec Ideal S216x10 .bf16) (x6 : Vec Ideal S1x10 .f32)
    (x7 : Vec Ideal S10x2316 .bf16) (x8 : Vec Ideal S1x2316 .f32) : S1024x2316.Idx → EReal :=
  fun y => Spec.mlp (mat x0) (mat x1) (row x2) (mat x3) (row x4) (mat x5) (row x6) (mat x7) (row x8) (y 0) (y 1)

/-- A rectangle of columns [o, o + n1) and rows [0, n0) of an R × C array places its local (r, q) at (r, o + q). -/
theorem cols_emb {R C : Nat} (o n0 n1 : Nat)
    (inb : ∀ a, (![0, o] : Fin 2 → Nat) a + (![n0, n1] : Fin 2 → Nat) a ≤ (⟨2, ![R, C]⟩ : Shape).size a)
    (r : Fin n0) (q : Fin n1) (hr : r.val < R) (hq : o + q.val < C) :
    (Rect.unit (s := ⟨2, ![R, C]⟩) ![0, o] ![n0, n1] inb).emb (ix2 r q) = ix2 ⟨r.val, hr⟩ ⟨o + q.val, hq⟩ := by
  funext a
  refine Fin.ext ?_
  match a with
  | ⟨0, _⟩ => show 0 + 1 * r.val = r.val; omega
  | ⟨1, _⟩ => show o + 1 * q.val = o + q.val; omega

/-- The head over column slices, at local (r, q), is the head over the full weights and bias at (r, o + q). -/
theorem head_cols (Fm : Fin 1024 → Fin 10 → EReal) (x7 : Vec Ideal S10x2316 .bf16) (x8 : Vec Ideal S1x2316 .f32) (o w : Nat)
    (inb7 : ∀ a, (![0, o] : Fin 2 → Nat) a + (![10, w] : Fin 2 → Nat) a ≤ S10x2316.size a)
    (inb8 : ∀ a, (![0, o] : Fin 2 → Nat) a + (![1, w] : Fin 2 → Nat) a ≤ S1x2316.size a)
    (r : Fin 1024) (q : Fin w) (hq : o + q.val < 2316) :
    Spec.head Fm (mat (View.ld x7 (Rect.unit ![0, o] ![10, w] inb7))) (row (View.ld x8 (Rect.unit ![0, o] ![1, w] inb8))) r q
      = Spec.head Fm (mat x7) (row x8) r ⟨o + q.val, hq⟩ := by
  have e7 : ∀ k : Fin 10, View.ld x7 (Rect.unit ![0, o] ![10, w] inb7) (ix2 k q) = x7 (ix2 k ⟨o + q.val, hq⟩) := fun k =>
    congrArg x7 (cols_emb (R := 10) (C := 2316) o 10 w inb7 k q k.isLt hq)
  have e8 : View.ld x8 (Rect.unit ![0, o] ![1, w] inb8) (ix2 (0 : Fin 1) q) = x8 (ix2 (0 : Fin 1) ⟨o + q.val, hq⟩) :=
    congrArg x8 (cols_emb (R := 1) (C := 2316) o 1 w inb8 (0 : Fin 1) q Nat.one_pos hq)
  show (∑ k : Fin 10, Fm r k * View.ld x7 (Rect.unit ![0, o] ![10, w] inb7) (ix2 k q))
      + View.ld x8 (Rect.unit ![0, o] ![1, w] inb8) (ix2 (0 : Fin 1) q) = _
  rw [e8, Finset.sum_congr rfl fun k _ => congrArg (Fm r k * ·) (e7 k)]
  rfl

/-- The chunk of columns [1280, 2316): its stored value at local (r, q) is the block's network at the chunk's place. -/
theorem piece_hi (x0 : Vec Ideal S1024x384 .f32) (x1 : Vec Ideal S384x512 .bf16) (x2 : Vec Ideal S1x512 .f32)
    (x3 : Vec Ideal S512x216 .bf16) (x4 : Vec Ideal S1x216 .f32) (x5 : Vec Ideal S216x10 .bf16) (x6 : Vec Ideal S1x10 .f32)
    (x7 : Vec Ideal S10x2316 .bf16) (x8 : Vec Ideal S1x2316 .f32)
    (inb7 : ∀ a, (![0, 1280] : Fin 2 → Nat) a + (![10, 1036] : Fin 2 → Nat) a ≤ S10x2316.size a)
    (inb8 : ∀ a, (![0, 1280] : Fin 2 → Nat) a + (![1, 1036] : Fin 2 → Nat) a ≤ S1x2316.size a)
    (inb10 : ∀ a, (![0, 1280] : Fin 2 → Nat) a + (![1024, 1036] : Fin 2 → Nat) a ≤ S1024x2316.size a)
    (r : Fin 1024) (q : Fin 1036) :
    k0_pay2 (F := Ideal) (k0_pay3 x0 x1 x2 x3 x4 x5 x6) (View.ld x7 (Rect.unit ![0, 1280] ![10, 1036] inb7))
        (View.ld x8 (Rect.unit ![0, 1280] ![1, 1036] inb8)) (ix2 r q)
      = blockG x0 x1 x2 x3 x4 x5 x6 x7 x8 ((Rect.unit (s := S1024x2316) ![0, 1280] ![1024, 1036] inb10).emb (ix2 r q)) := by
  have hq : 1280 + q.val < 2316 := by have := q.isLt; omega
  rw [cols_emb (R := 1024) (C := 2316) 1280 1024 1036 inb10 r q r.isLt hq]
  refine (pay2_apply _ _ _ r q).trans ?_
  exact (congrArg (fun Fm => Spec.head Fm _ _ r q) (pay3_mat x0 x1 x2 x3 x4 x5 x6)).trans
    (head_cols _ x7 x8 1280 1036 inb7 inb8 r q hq)

/-- The chunk of columns [0, 1280), whose weight slice is first recast to its own shape. -/
theorem piece_lo (x0 : Vec Ideal S1024x384 .f32) (x1 : Vec Ideal S384x512 .bf16) (x2 : Vec Ideal S1x512 .f32)
    (x3 : Vec Ideal S512x216 .bf16) (x4 : Vec Ideal S1x216 .f32) (x5 : Vec Ideal S216x10 .bf16) (x6 : Vec Ideal S1x10 .f32)
    (x7 : Vec Ideal S10x2316 .bf16) (x8 : Vec Ideal S1x2316 .f32)
    (inb7 : ∀ a, (![0, 0] : Fin 2 → Nat) a + (![10, 1280] : Fin 2 → Nat) a ≤ S10x2316.size a)
    (inb8 : ∀ a, (![0, 0] : Fin 2 → Nat) a + (![1, 1280] : Fin 2 → Nat) a ≤ S1x2316.size a)
    (inb10 : ∀ a, (![0, 0] : Fin 2 → Nat) a + (![1024, 1280] : Fin 2 → Nat) a ≤ S1024x2316.size a)
    (r : Fin 1024) (q : Fin 1280) :
    k0_pay1 (F := Ideal) (k0_pay3 x0 x1 x2 x3 x4 x5 x6) (k0_pay4 (View.ld x7 (Rect.unit ![0, 0] ![10, 1280] inb7)))
        (View.ld x8 (Rect.unit ![0, 0] ![1, 1280] inb8)) (ix2 r q)
      = blockG x0 x1 x2 x3 x4 x5 x6 x7 x8 ((Rect.unit (s := S1024x2316) ![0, 0] ![1024, 1280] inb10).emb (ix2 r q)) := by
  have hq : 0 + q.val < 2316 := by have := q.isLt; omega
  rw [cols_emb (R := 1024) (C := 2316) 0 1024 1280 inb10 r q r.isLt hq, pay4_eq]
  refine (pay1_apply _ _ _ r q).trans ?_
  exact (congrArg (fun Fm => Spec.head Fm _ _ r q) (pay3_mat x0 x1 x2 x3 x4 x5 x6)).trans
    (head_cols _ x7 x8 0 1280 inb7 inb8 r q hq)

end Cert.KernelIdeal.Pieces

end
-- ==== Proof.OutBlock.lean ====
/-
  What one grid point leaves in its output block.

  The run of the body ends with the output block holding two stored pieces, the column chunks [1280, 2316) and
  [0, 1280), which together cover the block. Each piece is the block's network read at the piece's place, so the
  block, read back after the run, is the block's network at every entry: the specification on the 1024 rows the point
  loaded, over the resident weights and biases.
-/
import proofs.«122354_j26766236189308_2_alg».proof.Proof.Gen.KernelIdeal.Frame
import proofs.«122354_j26766236189308_2_alg».proof.Proof.Pieces
import Idealize.ShloMosaic.Lib.Pipeline.Value
import Idealize.ShloMosaic.PureOps.Ideal

set_option maxRecDepth 16384

noncomputable section

namespace Cert.KernelIdeal.OutBlock

open Cert.KernelIdeal Cert.KernelIdeal.Gen
open Idealize.ShloMosaic Idealize.ShloMosaic.TcCoe Idealize.ShloMosaic.Tactic Idealize.ShloMosaic.ValueIdx
open Idealize.SL Idealize.SL.Sem
open Cert.KernelIdeal.Pieces

/-- The offsets of a whole-buffer load, however spelt, are zero on both axes. -/
theorem zero_offsets : (![0, 0] : Fin 2 → Nat) = fun _ => 0 := by
  funext a; match a with | ⟨0, _⟩ => rfl | ⟨1, _⟩ => rfl

/-- The output block after the body, as a function of the blocks the body loaded. -/
theorem out_eq (c : Dev nD) (i : grid0.Coords) (arg1 : Memref sig .tc .vmem S1024x384 .f32) (harg1 : arg1.IsWhole) (arg2 : Memref sig .tc .vmem S384x512 .bf16) (harg2 : arg2.IsWhole) (arg3 : Memref sig .tc .vmem S1x512 .f32) (harg3 : arg3.IsWhole) (arg4 : Memref sig .tc .vmem S512x216 .bf16) (harg4 : arg4.IsWhole) (arg5 : Memref sig .tc .vmem S1x216 .f32) (harg5 : arg5.IsWhole) (arg6 : Memref sig .tc .vmem S216x10 .bf16) (harg6 : arg6.IsWhole) (arg7 : Memref sig .tc .vmem S1x10 .f32) (harg7 : arg7.IsWhole) (arg8 : Memref sig .tc .vmem S10x2316 .bf16) (harg8 : arg8.IsWhole) (arg9 : Memref sig .tc .vmem S1x2316 .f32) (harg9 : arg9.IsWhole) (arg10 : Memref sig .tc .vmem S1024x2316 .f32) (harg10 : arg10.IsWhole) (x0 : Vec Ideal S1024x384 .f32) (x1 : Vec Ideal S384x512 .bf16) (x2 : Vec Ideal S1x512 .f32) (x3 : Vec Ideal S512x216 .bf16) (x4 : Vec Ideal S1x216 .f32) (x5 : Vec Ideal S216x10 .bf16) (x6 : Vec Ideal S1x10 .f32) (x7 : Vec Ideal S10x2316 .bf16) (x8 : Vec Ideal S1x2316 .f32) :
    out0_A_9 (F := Ideal) c i arg1 harg1 arg2 harg2 arg3 harg3 arg4 harg4 arg5 harg5 arg6 harg6 arg7 harg7 arg8 harg8 arg9 harg9 arg10 harg10 x0 x1 x2 x3 x4 x5 x6 x7 x8 = blockG x0 x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5 x6 x7 x8)]
  funext y
  refine View.canon_apply_of_pieces (blockG x0 x1 x2 x3 x4 x5 x6 x7 x8) _ ?_ y (cover0_A_9 c i arg1 harg1 arg2 harg2 arg3 harg3 arg4 harg4 arg5 harg5 arg6 harg6 arg7 harg7 arg8 harg8 arg9 harg9 arg10 harg10 x0 x1 x2 x3 x4 x5 x6 x7 x8 y)
  unfold kernelRun0_A
  dsimp only
  sl_unfold_words
  simp only [View.readAt_eq_ld, harg1.read_unread, harg2.read_unread, harg3.read_unread, harg4.read_unread, harg5.read_unread,
    harg6.read_unread, harg7.read_unread, harg8.read_unread, harg9.read_unread,
    View.ld_unit_zero (S := S1024x384) zero_offsets, View.ld_unit_zero (S := S384x512) zero_offsets,
    View.ld_unit_zero (S := S1x512) zero_offsets, View.ld_unit_zero (S := S512x216) zero_offsets,
    View.ld_unit_zero (S := S1x216) zero_offsets, View.ld_unit_zero (S := S216x10) zero_offsets,
    View.ld_unit_zero (S := S1x10) zero_offsets]
  refine List.forall_mem_cons.mpr ⟨fun x => ?_, List.forall_mem_cons.mpr ⟨fun x => ?_, fun _ h => absurd h List.not_mem_nil⟩⟩
  · obtain ⟨r, q, rfl⟩ : ∃ (r : Fin 1024) (q : Fin 1036), x = ix2 r q := ⟨x 0, x 1, eq_ix2 x⟩
    exact piece_hi x0 x1 x2 x3 x4 x5 x6 x7 x8 inb_S10x2316_S10x1036_0_1280 inb_S1x2316_S1x1036_0_1280 inb_S1024x2316_S1024x1036_0_1280 r q
  · obtain ⟨r, q, rfl⟩ : ∃ (r : Fin 1024) (q : Fin 1280), x = ix2 r q := ⟨x 0, x 1, eq_ix2 x⟩
    exact piece_lo x0 x1 x2 x3 x4 x5 x6 x7 x8 inb_S10x2316_S10x1280_0_0 inb_S1x2316_S1x1280_0_0 inb_S1024x2316_S1024x1280_0_0 r q

end Cert.KernelIdeal.OutBlock

end
-- ==== Proof.WholeSpec.lean ====
/-
  The whole result as one function of the argument arrays.

  Entry (i, j) of the result is the network on all 16384 rows, read at row i and column j: the head over the features
  of row i. Both programs are shown to end with this function of their arguments; stated over literal shapes so that
  it belongs to neither program.
-/
import proofs.«122354_j26766236189308_2_alg».proof.Proof.Spec

noncomputable section

namespace Cert.Bridge.WholeSpec

open Idealize.ShloMosaic Idealize.ShloMosaic.ValueIdx Cert.Bridge Cert.Bridge.LayerAt

/-- A one-axis array as a function of its coordinate. -/
abbrev vec {N : Nat} (b : (⟨1, ![N]⟩ : Shape).Idx → EReal) : Fin N → EReal := fun q => b (ix1 q)

/-- The network on all the rows, as a function of the result's index. -/
def G (a0 : (⟨2, ![16384, 384]⟩ : Shape).Idx → EReal) (a1 : (⟨2, ![384, 512]⟩ : Shape).Idx → EReal) (a2 : (⟨1, ![512]⟩ : Shape).Idx → EReal)
    (a3 : (⟨2, ![512, 216]⟩ : Shape).Idx → EReal) (a4 : (⟨1, ![216]⟩ : Shape).Idx → EReal)
    (a5 : (⟨2, ![216, 10]⟩ : Shape).Idx → EReal) (a6 : (⟨1, ![10]⟩ : Shape).Idx → EReal)
    (a7 : (⟨2, ![10, 2316]⟩ : Shape).Idx → EReal) (a8 : (⟨1, ![2316]⟩ : Shape).Idx → EReal) :
    (⟨2, ![16384, 2316]⟩ : Shape).Idx → EReal :=
  fun i => Spec.mlp (mat a0) (mat a1) (vec a2) (mat a3) (vec a4) (mat a5) (vec a6) (mat a7) (vec a8) (i 0) (i 1)

/-- The network depends on its nine operands only through their entries. -/
theorem mlp_congr {M : Nat} {x x' : Fin M → Fin 384 → EReal} {W1 W1' : Fin 384 → Fin 512 → EReal} {b1 b1' : Fin 512 → EReal}
    {W2 W2' : Fin 512 → Fin 216 → EReal} {b2 b2' : Fin 216 → EReal} {W3 W3' : Fin 216 → Fin 10 → EReal} {b3 b3' : Fin 10 → EReal}
    {Wh Wh' : Fin 10 → Fin 2316 → EReal} {bh bh' : Fin 2316 → EReal}
    (h0 : x = x') (h1 : W1 = W1') (h2 : b1 = b1') (h3 : W2 = W2') (h4 : b2 = b2') (h5 : W3 = W3') (h6 : b3 = b3')
    (h7 : Wh = Wh') (h8 : bh = bh') :
    Spec.mlp x W1 b1 W2 b2 W3 b3 Wh bh = Spec.mlp x' W1' b1' W2' b2' W3' b3' Wh' bh' := by
  subst h0 h1 h2 h3 h4 h5 h6 h7 h8
  rfl

end Cert.Bridge.WholeSpec

end
-- ==== Proof.KernelValue.lean ====
/-
  The kernel's result array, as one function of its arguments.

  The grid has 16 points; point t loads rows [1024 t, 1024 t + 1024) of x and the whole of every weight and bias
  (converted, or recast to one row, before the call: on the extended reals neither changes an entry), and writes back
  block t of the result, rows [1024 t, 1024 t + 1024) and all 2316 columns. What it writes is the network on the rows it
  loaded, and a row of the network depends on that row of x alone, so block t is the restriction of the whole-result
  function to its rows. The 16 blocks tile the result (row i lies in block i / 1024), so the result array ends holding
  the whole-result function everywhere.
-/
import proofs.«122354_j26766236189308_2_alg».proof.Proof.Gen.KernelIdeal.Value
import proofs.«122354_j26766236189308_2_alg».proof.Proof.OutBlock
import proofs.«122354_j26766236189308_2_alg».proof.Proof.WholeSpec
import Idealize.ShloMosaic.Lib.StableHlo.Run
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.Tactic Idealize.ShloMosaic.ValueIdx
open Idealize.SL Idealize.SL.Sem Idealize.ShloMosaic.StableHlo
open Idealize.ShloMosaic.Pipeline (Dat)
open Cert.Bridge Cert.Bridge.LayerAt Cert.Bridge.WholeSpec Cert.KernelIdeal.Pieces

variable (m : (ℓ : Loc nD τ sig) → Buf (Elt Ideal) ℓ) (ρ : Dev nD → PrngReg)

/-! ## The grid and the index maps -/

theorem lt16 (t : Fin cfg0.N) : t.val < 16 := Nat.lt_of_lt_of_eq t.isLt N_0

/-- Row r of grid point t's block is row 1024 t + r of the array. -/
def rowOf (t : Fin cfg0.N) (r : Fin 1024) : Fin 16384 :=
  ⟨t.val * 1024 + r.val, by have := lt16 t; have := r.isLt; omega⟩

/-- The printed index maps, decided once over the 16 points: the windows of x and of the result sit at block (t, 0);
    every other window stays at block (0, 0). -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = t.val
    ∧ win0_9.index t (1 : Fin 2) = 0 :=
  (by decide +kernel : ∀ t : Fin grid0.N, _)

/-! ## What the windows' arrays hold when the region is entered -/

/-- The converted weights main_v0, as the region finds them: the weights, entry by entry (a change of format is the
    identity on the extended reals). -/
theorem V_main_v0 (c : Dev nD) : (V (F := Ideal) m c main_v0 : S384x512.Idx → EReal) = fun j => m ((c : Thread nD τ).loc main_arg1) j := by
  dsimp only [Gen.V, Gen.hostOps0]; after_results; rfl

/-- The converted weights main_v1, as the region finds them: the weights, entry by entry (a change of format is the
    identity on the extended reals). -/
theorem V_main_v1 (c : Dev nD) : (V (F := Ideal) m c main_v1 : S512x216.Idx → EReal) = fun j => m ((c : Thread nD τ).loc main_arg3) j := by
  dsimp only [Gen.V, Gen.hostOps0]; after_results; rfl

/-- The converted weights main_v2, as the region finds them: the weights, entry by entry (a change of format is the
    identity on the extended reals). -/
theorem V_main_v2 (c : Dev nD) : (V (F := Ideal) m c main_v2 : S216x10.Idx → EReal) = fun j => m ((c : Thread nD τ).loc main_arg5) j := by
  dsimp only [Gen.V, Gen.hostOps0]; after_results; rfl

/-- The converted weights main_v3, as the region finds them: the weights, entry by entry (a change of format is the
    identity on the extended reals). -/
theorem V_main_v3 (c : Dev nD) : (V (F := Ideal) m c main_v3 : S10x2316.Idx → EReal) = fun j => m ((c : Thread nD τ).loc main_arg7) j := by
  dsimp only [Gen.V, Gen.hostOps0]; after_results; rfl

/-- The reshaped bias main_v4, as the region finds it: the bias recast from [512] to [1, 512]. -/
theorem V_main_v4 (c : Dev nD) : (V (F := Ideal) m c main_v4 : S1x512.Idx → EReal)
    = shapeCast S1x512 (m ((c : Thread nD τ).loc main_arg2)) shapeCasts_S512_S1x512 := by
  dsimp only [Gen.V, Gen.hostOps0]; after_results; rfl

/-- The reshaped bias main_v5, as the region finds it: the bias recast from [216] to [1, 216]. -/
theorem V_main_v5 (c : Dev nD) : (V (F := Ideal) m c main_v5 : S1x216.Idx → EReal)
    = shapeCast S1x216 (m ((c : Thread nD τ).loc main_arg4)) shapeCasts_S216_S1x216 := by
  dsimp only [Gen.V, Gen.hostOps0]; after_results; rfl

/-- The reshaped bias main_v6, as the region finds it: the bias recast from [10] to [1, 10]. -/
theorem V_main_v6 (c : Dev nD) : (V (F := Ideal) m c main_v6 : S1x10.Idx → EReal)
    = shapeCast S1x10 (m ((c : Thread nD τ).loc main_arg6)) shapeCasts_S10_S1x10 := by
  dsimp only [Gen.V, Gen.hostOps0]; after_results; rfl

/-- The reshaped bias main_v7, as the region finds it: the bias recast from [2316] to [1, 2316]. -/
theorem V_main_v7 (c : Dev nD) : (V (F := Ideal) m c main_v7 : S1x2316.Idx → EReal)
    = shapeCast S1x2316 (m ((c : Thread nD τ).loc main_arg8)) shapeCasts_S2316_S1x2316 := by
  dsimp only [Gen.V, Gen.hostOps0]; after_results; rfl

/-! ## Each input block as a restriction of its argument array -/

/-- Window 0: the block of x at point t is rows [1024 t, 1024 t + 1024) of x. -/
theorem blk0 (c : Dev nD) (t : Fin cfg0.N) :
    mat (iblk (F := Ideal) m c 0 t) = fun r => mat (m ((c : Thread nD τ).loc main_arg0)) (rowOf t r) := by
  funext r k
  obtain ⟨e0_0, e0_1, -, -, -, -, -, -, -, -, -, -, -, -, -, -, -, -, -, -⟩ := idx_facts t
  show V m c main_arg0 (((cfg0.win 0).blk t).view.emb (ix2 r k)) = m ((c : Thread nD τ).loc main_arg0) (ix2 (rowOf t r) k)
  rw [V_main_arg0]
  refine congrArg (m ((c : Thread nD τ).loc main_arg0)) ?_
  funext a; refine Fin.ext ?_
  match a with
  | ⟨0, _⟩ => show win0_0.index t (0 : Fin 2) * 1024 + 1 * r.val = t.val * 1024 + r.val; rw [e0_0]; omega
  | ⟨1, _⟩ => show win0_0.index t (1 : Fin 2) * 384 + 1 * k.val = k.val; rw [e0_1]; omega

/-- Window 1 is resident: its one block is the whole 384 × 512 weight array. -/
theorem blk1 (c : Dev nD) (t : Fin cfg0.N) : mat (iblk (F := Ideal) m c 1 t) = mat (m ((c : Thread nD τ).loc main_arg1)) := by
  funext p k
  obtain ⟨-, -, e1_0, e1_1, -, -, -, -, -, -, -, -, -, -, -, -, -, -, -, -⟩ := idx_facts t
  show V m c main_v0 (((cfg0.win 1).blk t).view.emb (ix2 p k)) = m ((c : Thread nD τ).loc main_arg1) (ix2 p k)
  refine (congrFun (V_main_v0 m c) _).trans ?_
  refine congrArg (m ((c : Thread nD τ).loc main_arg1)) ?_
  funext a; refine Fin.ext ?_
  match a with
  | ⟨0, _⟩ => show win0_1.index t (0 : Fin 2) * 384 + 1 * p.val = p.val; rw [e1_0]; omega
  | ⟨1, _⟩ => show win0_1.index t (1 : Fin 2) * 512 + 1 * k.val = k.val; rw [e1_1]; omega

/-- Window 3 is resident: its one block is the whole 512 × 216 weight array. -/
theorem blk3 (c : Dev nD) (t : Fin cfg0.N) : mat (iblk (F := Ideal) m c 3 t) = mat (m ((c : Thread nD τ).loc main_arg3)) := by
  funext p k
  obtain ⟨-, -, -, -, -, -, e3_0, e3_1, -, -, -, -, -, -, -, -, -, -, -, -⟩ := idx_facts t
  show V m c main_v1 (((cfg0.win 3).blk t).view.emb (ix2 p k)) = m ((c : Thread nD τ).loc main_arg3) (ix2 p k)
  refine (congrFun (V_main_v1 m c) _).trans ?_
  refine congrArg (m ((c : Thread nD τ).loc main_arg3)) ?_
  funext a; refine Fin.ext ?_
  match a with
  | ⟨0, _⟩ => show win0_3.index t (0 : Fin 2) * 512 + 1 * p.val = p.val; rw [e3_0]; omega
  | ⟨1, _⟩ => show win0_3.index t (1 : Fin 2) * 216 + 1 * k.val = k.val; rw [e3_1]; omega

/-- Window 5 is resident: its one block is the whole 216 × 10 weight array. -/
theorem blk5 (c : Dev nD) (t : Fin cfg0.N) : mat (iblk (F := Ideal) m c 5 t) = mat (m ((c : Thread nD τ).loc main_arg5)) := by
  funext p k
  obtain ⟨-, -, -, -, -, -, -, -, -, -, e5_0, e5_1, -, -, -, -, -, -, -, -⟩ := idx_facts t
  show V m c main_v2 (((cfg0.win 5).blk t).view.emb (ix2 p k)) = m ((c : Thread nD τ).loc main_arg5) (ix2 p k)
  refine (congrFun (V_main_v2 m c) _).trans ?_
  refine congrArg (m ((c : Thread nD τ).loc main_arg5)) ?_
  funext a; refine Fin.ext ?_
  match a with
  | ⟨0, _⟩ => show win0_5.index t (0 : Fin 2) * 216 + 1 * p.val = p.val; rw [e5_0]; omega
  | ⟨1, _⟩ => show win0_5.index t (1 : Fin 2) * 10 + 1 * k.val = k.val; rw [e5_1]; omega

/-- Window 7 is resident: its one block is the whole 10 × 2316 weight array. -/
theorem blk7 (c : Dev nD) (t : Fin cfg0.N) : mat (iblk (F := Ideal) m c 7 t) = mat (m ((c : Thread nD τ).loc main_arg7)) := by
  funext p k
  obtain ⟨-, -, -, -, -, -, -, -, -, -, -, -, -, -, e7_0, e7_1, -, -, -, -⟩ := idx_facts t
  show V m c main_v3 (((cfg0.win 7).blk t).view.emb (ix2 p k)) = m ((c : Thread nD τ).loc main_arg7) (ix2 p k)
  refine (congrFun (V_main_v3 m c) _).trans ?_
  refine congrArg (m ((c : Thread nD τ).loc main_arg7)) ?_
  funext a; refine Fin.ext ?_
  match a with
  | ⟨0, _⟩ => show win0_7.index t (0 : Fin 2) * 10 + 1 * p.val = p.val; rw [e7_0]; omega
  | ⟨1, _⟩ => show win0_7.index t (1 : Fin 2) * 2316 + 1 * k.val = k.val; rw [e7_1]; omega

/-- Window 2 is resident: its one block is the whole bias row, whose entry q is the bias at q. -/
theorem blk2 (c : Dev nD) (t : Fin cfg0.N) : row (iblk (F := Ideal) m c 2 t) = vec (m ((c : Thread nD τ).loc main_arg2)) := by
  funext q
  obtain ⟨-, -, -, -, e2_0, e2_1, -, -, -, -, -, -, -, -, -, -, -, -, -, -⟩ := idx_facts t
  show V m c main_v4 (((cfg0.win 2).blk t).view.emb (ix2 (0 : Fin 1) q)) = m ((c : Thread nD τ).loc main_arg2) (ix1 q)
  rw [V_main_v4]
  have hi : ((cfg0.win 2).blk t).view.emb (ix2 (0 : Fin 1) q) = ix2 (0 : Fin 1) q := by
    funext a; refine Fin.ext ?_
    match a with
    | ⟨0, _⟩ => show win0_2.index t (0 : Fin 2) * 1 + 1 * (0 : Fin 1).val = (0 : Fin 1).val; rw [e2_0]; rfl
    | ⟨1, _⟩ => show win0_2.index t (1 : Fin 2) * 512 + 1 * q.val = q.val; rw [e2_1]; omega
  rw [hi]
  exact shapeCast_a_1a_apply _ shapeCasts_S512_S1x512 (0 : Fin 1) q

/-- Window 4 is resident: its one block is the whole bias row, whose entry q is the bias at q. -/
theorem blk4 (c : Dev nD) (t : Fin cfg0.N) : row (iblk (F := Ideal) m c 4 t) = vec (m ((c : Thread nD τ).loc main_arg4)) := by
  funext q
  obtain ⟨-, -, -, -, -, -, -, -, e4_0, e4_1, -, -, -, -, -, -, -, -, -, -⟩ := idx_facts t
  show V m c main_v5 (((cfg0.win 4).blk t).view.emb (ix2 (0 : Fin 1) q)) = m ((c : Thread nD τ).loc main_arg4) (ix1 q)
  rw [V_main_v5]
  have hi : ((cfg0.win 4).blk t).view.emb (ix2 (0 : Fin 1) q) = ix2 (0 : Fin 1) q := by
    funext a; refine Fin.ext ?_
    match a with
    | ⟨0, _⟩ => show win0_4.index t (0 : Fin 2) * 1 + 1 * (0 : Fin 1).val = (0 : Fin 1).val; rw [e4_0]; rfl
    | ⟨1, _⟩ => show win0_4.index t (1 : Fin 2) * 216 + 1 * q.val = q.val; rw [e4_1]; omega
  rw [hi]
  exact shapeCast_a_1a_apply _ shapeCasts_S216_S1x216 (0 : Fin 1) q

/-- Window 6 is resident: its one block is the whole bias row, whose entry q is the bias at q. -/
theorem blk6 (c : Dev nD) (t : Fin cfg0.N) : row (iblk (F := Ideal) m c 6 t) = vec (m ((c : Thread nD τ).loc main_arg6)) := by
  funext q
  obtain ⟨-, -, -, -, -, -, -, -, -, -, -, -, e6_0, e6_1, -, -, -, -, -, -⟩ := idx_facts t
  show V m c main_v6 (((cfg0.win 6).blk t).view.emb (ix2 (0 : Fin 1) q)) = m ((c : Thread nD τ).loc main_arg6) (ix1 q)
  rw [V_main_v6]
  have hi : ((cfg0.win 6).blk t).view.emb (ix2 (0 : Fin 1) q) = ix2 (0 : Fin 1) q := by
    funext a; refine Fin.ext ?_
    match a with
    | ⟨0, _⟩ => show win0_6.index t (0 : Fin 2) * 1 + 1 * (0 : Fin 1).val = (0 : Fin 1).val; rw [e6_0]; rfl
    | ⟨1, _⟩ => show win0_6.index t (1 : Fin 2) * 10 + 1 * q.val = q.val; rw [e6_1]; omega
  rw [hi]
  exact shapeCast_a_1a_apply _ shapeCasts_S10_S1x10 (0 : Fin 1) q

/-- Window 8 is resident: its one block is the whole bias row, whose entry q is the bias at q. -/
theorem blk8 (c : Dev nD) (t : Fin cfg0.N) : row (iblk (F := Ideal) m c 8 t) = vec (m ((c : Thread nD τ).loc main_arg8)) := by
  funext q
  obtain ⟨-, -, -, -, -, -, -, -, -, -, -, -, -, -, -, -, e8_0, e8_1, -, -⟩ := idx_facts t
  show V m c main_v7 (((cfg0.win 8).blk t).view.emb (ix2 (0 : Fin 1) q)) = m ((c : Thread nD τ).loc main_arg8) (ix1 q)
  rw [V_main_v7]
  have hi : ((cfg0.win 8).blk t).view.emb (ix2 (0 : Fin 1) q) = ix2 (0 : Fin 1) q := by
    funext a; refine Fin.ext ?_
    match a with
    | ⟨0, _⟩ => show win0_8.index t (0 : Fin 2) * 1 + 1 * (0 : Fin 1).val = (0 : Fin 1).val; rw [e8_0]; rfl
    | ⟨1, _⟩ => show win0_8.index t (1 : Fin 2) * 2316 + 1 * q.val = q.val; rw [e8_1]; omega
  rw [hi]
  exact shapeCast_a_1a_apply _ shapeCasts_S2316_S1x2316 (0 : Fin 1) q

/-! ## A block of the network is the network's rows -/

/-- The network on 1024 rows that are rows σ r of x, over the same weights and biases, read at (r, q), is the
    whole-result function at (σ r, q). -/
theorem blockG_of_whole (X0 : Vec Ideal S1024x384 .f32) (X1 : Vec Ideal S384x512 .bf16) (X2 : Vec Ideal S1x512 .f32)
    (X3 : Vec Ideal S512x216 .bf16) (X4 : Vec Ideal S1x216 .f32) (X5 : Vec Ideal S216x10 .bf16) (X6 : Vec Ideal S1x10 .f32)
    (X7 : Vec Ideal S10x2316 .bf16) (X8 : Vec Ideal S1x2316 .f32)
    (a0 : (⟨2, ![16384, 384]⟩ : Shape).Idx → EReal) (a1 : (⟨2, ![384, 512]⟩ : Shape).Idx → EReal) (a2 : (⟨1, ![512]⟩ : Shape).Idx → EReal)
    (a3 : (⟨2, ![512, 216]⟩ : Shape).Idx → EReal) (a4 : (⟨1, ![216]⟩ : Shape).Idx → EReal)
    (a5 : (⟨2, ![216, 10]⟩ : Shape).Idx → EReal) (a6 : (⟨1, ![10]⟩ : Shape).Idx → EReal)
    (a7 : (⟨2, ![10, 2316]⟩ : Shape).Idx → EReal) (a8 : (⟨1, ![2316]⟩ : Shape).Idx → EReal)
    (σ : Fin 1024 → Fin 16384)
    (h0 : mat X0 = fun r => mat a0 (σ r)) (h1 : mat X1 = mat a1) (h2 : row X2 = vec a2) (h3 : mat X3 = mat a3)
    (h4 : row X4 = vec a4) (h5 : mat X5 = mat a5) (h6 : row X6 = vec a6) (h7 : mat X7 = mat a7) (h8 : row X8 = vec a8)
    (r : Fin 1024) (q : Fin 2316) :
    blockG X0 X1 X2 X3 X4 X5 X6 X7 X8 (ix2 r q) = G a0 a1 a2 a3 a4 a5 a6 a7 a8 (ix2 (σ r) q) :=
  (congrFun (congrFun (mlp_congr h0 h1 h2 h3 h4 h5 h6 h7 h8) r) q).trans
    (congrFun (congrFun (Spec.mlp_rows σ (mat a0) (mat a1) (vec a2) (mat a3) (vec a4) (mat a5) (vec a6) (mat a7) (vec a8)) r) q)

/-! ## What a point writes back, the cover, and the array after the run -/

/-- WHAT POINT t WRITES BACK is block t of the whole-result function of the arguments as launched. -/
theorem flushed_eq (c : Dev nD) (t : Fin cfg0.N) :
    (dats m 0 c).flushed 9 t = ((cfg0.win 9).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (Value.flushed9_A m c t).trans ?_
  refine (congrArg ((cfg0.win 9).cut (grid0.coords t))
    (OutBlock.out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (iblk m c 8 t))).trans ?_
  funext j
  obtain ⟨r, q, rfl⟩ : ∃ (r : Fin 1024) (q : Fin 2316), j = ix2 r q := ⟨j 0, j 1, eq_ix2 j⟩
  obtain ⟨-, -, -, -, -, -, -, -, -, -, -, -, -, -, -, -, -, -, e9_0, e9_1⟩ := idx_facts t
  show blockG (iblk m c 0 t) (iblk m c 1 t) (iblk m c 2 t) (iblk m c 3 t) (iblk m c 4 t) (iblk m c 5 t) (iblk m c 6 t) (iblk m c 7 t) (iblk m c 8 t) (ix2 r q) = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (((cfg0.win 9).blk t).view.emb (ix2 r q))
  have hi : ((cfg0.win 9).blk t).view.emb (ix2 r q) = ix2 (rowOf t r) q := by
    funext a; refine Fin.ext ?_
    match a with
    | ⟨0, _⟩ => show win0_9.index t (0 : Fin 2) * 1024 + 1 * r.val = t.val * 1024 + r.val; rw [e9_0]; omega
    | ⟨1, _⟩ => show win0_9.index t (1 : Fin 2) * 2316 + 1 * q.val = q.val; rw [e9_1]; omega
  rw [hi]
  exact blockG_of_whole _ _ _ _ _ _ _ _ _ _ _ _ _ _ _ _ _ _ (rowOf t)
    (blk0 m c t) (blk1 m c t) (blk2 m c t) (blk3 m c t) (blk4 m c t) (blk5 m c t) (blk6 m c t) (blk7 m c t) (blk8 m c t) r q

/-- An index of the result is in point t's block iff each coordinate is in the block's range on its axis. -/
theorem mem_blk (t : Fin cfg0.N) (i : S16384x2316.Idx) :
    i ∈ ((cfg0.win 9).blk t).view.set ↔ ∀ a : Fin 2, win0_9.index t a * S1024x2316.size a ≤ (i a).val
      ∧ (i a).val < win0_9.index t a * S1024x2316.size a + S1024x2316.size a := by
  show i ∈ ((View.whole main_v8).slice (win0_9.rect t)).set ↔ _
  rw [View.set_slice_whole, Rect.mem_set_unit]
  exact Iff.rfl

/-- The blocks tile the result: row i lies in the block of point i / 1024. -/
theorem cover (i : S16384x2316.Idx) :
    ∃ t : Fin cfg0.N, (cfg0.win 9).flush t = true ∧ i ∈ ((cfg0.win 9).blk t).view.set := by
  have hi0 : (i 0).val < 16384 := (i 0).isLt
  have hi1 : (i 1).val < 2316 := (i 1).isLt
  have ht : (i 0).val / 1024 < cfg0.N := Nat.lt_of_lt_of_eq (by omega : (i 0).val / 1024 < 16) N_0.symm
  obtain ⟨-, -, -, -, -, -, -, -, -, -, -, -, -, -, -, -, -, -, e9_0, e9_1⟩ := idx_facts ⟨(i 0).val / 1024, ht⟩
  refine ⟨⟨(i 0).val / 1024, ht⟩, flush0_9 _, ?_⟩
  rw [mem_blk]
  intro a
  match a with
  | ⟨0, _⟩ =>
    show win0_9.index ⟨(i 0).val / 1024, ht⟩ (0 : Fin 2) * 1024 ≤ (i 0).val
      ∧ (i 0).val < win0_9.index ⟨(i 0).val / 1024, ht⟩ (0 : Fin 2) * 1024 + 1024
    rw [e9_0]; show (i 0).val / 1024 * 1024 ≤ (i 0).val ∧ (i 0).val < (i 0).val / 1024 * 1024 + 1024; omega
  | ⟨1, _⟩ =>
    show win0_9.index ⟨(i 0).val / 1024, ht⟩ (1 : Fin 2) * 2316 ≤ (i 1).val
      ∧ (i 1).val < win0_9.index ⟨(i 0).val / 1024, ht⟩ (1 : Fin 2) * 2316 + 2316
    rw [e9_1]; omega

/-- THE ARRAY after the run: the whole-result function of the arguments as launched. -/
theorem final (c : Dev nD) : (dats m 0 c).arrAt 9 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 _ (fun t _ => flushed_eq m c t) (cover)

/-! ## The run, read -/

/-- Every weakly fair execution ends with the result array at the whole-result function of the arguments, the
    arguments unchanged. -/
theorem run : θ_run defs (onTc (τ := τ) (main (F := Ideal))) ⟨m, fun _ => 0, ρ⟩ fun r => ∀ c : Dev nD,
      r.2.mem ((c : Thread nD τ).loc main_v8) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Whole

end
-- ==== Proof.RefIsG.lean ====
/-
  The reference, read as the whole-result function.

  The reference applies, to all 16384 rows at once, a product, a bias spread over the rows and a clamp at zero, three
  times, and then a last product and bias. Read at entry (p, q), each product is the sum over k of the previous
  stage at (p, k) times the weight at (k, q), and each spread bias is the bias at q; so each hidden stage, as a
  matrix, is the specification's layer of the stage before it, and the result is the head over the third stage.
-/
import proofs.«122354_j26766236189308_2_alg».proof.Proof.Gen.ReferenceIdeal.Read
import proofs.«122354_j26766236189308_2_alg».proof.Proof.WholeSpec

noncomputable section

open scoped BigOperators

namespace Cert.ReferenceIdeal.RefValue

open Cert.ReferenceIdeal Cert.ReferenceIdeal.Read Idealize.ShloMosaic Idealize.ShloMosaic.ValueIdx
open Cert.Bridge Cert.Bridge.LayerAt Cert.Bridge.WholeSpec

/-! The operands' indices at entry (p, q) and contraction coordinate k; the spread biases' index at (p, q). -/
theorem lidx_v0 (p : Fin 16384) (q : Fin 512) (k : Fin 384) : lidx_main_v0 (ix2 p q) k = ix2 p k :=
  funext fun a => by match a with | ⟨0, _⟩ => rfl | ⟨1, _⟩ => rfl
theorem ridx_v0 (p : Fin 16384) (q : Fin 512) (k : Fin 384) : ridx_main_v0 (ix2 p q) k = ix2 k q :=
  funext fun a => by match a with | ⟨0, _⟩ => rfl | ⟨1, _⟩ => rfl
theorem lidx_v5 (p : Fin 16384) (q : Fin 216) (k : Fin 512) : lidx_main_v5 (ix2 p q) k = ix2 p k :=
  funext fun a => by match a with | ⟨0, _⟩ => rfl | ⟨1, _⟩ => rfl
theorem ridx_v5 (p : Fin 16384) (q : Fin 216) (k : Fin 512) : ridx_main_v5 (ix2 p q) k = ix2 k q :=
  funext fun a => by match a with | ⟨0, _⟩ => rfl | ⟨1, _⟩ => rfl
theorem lidx_v10 (p : Fin 16384) (q : Fin 10) (k : Fin 216) : lidx_main_v10 (ix2 p q) k = ix2 p k :=
  funext fun a => by match a with | ⟨0, _⟩ => rfl | ⟨1, _⟩ => rfl
theorem ridx_v10 (p : Fin 16384) (q : Fin 10) (k : Fin 216) : ridx_main_v10 (ix2 p q) k = ix2 k q :=
  funext fun a => by match a with | ⟨0, _⟩ => rfl | ⟨1, _⟩ => rfl
theorem lidx_v15 (p : Fin 16384) (q : Fin 2316) (k : Fin 10) : lidx_main_v15 (ix2 p q) k = ix2 p k :=
  funext fun a => by match a with | ⟨0, _⟩ => rfl | ⟨1, _⟩ => rfl
theorem ridx_v15 (p : Fin 16384) (q : Fin 2316) (k : Fin 10) : ridx_main_v15 (ix2 p q) k = ix2 k q :=
  funext fun a => by match a with | ⟨0, _⟩ => rfl | ⟨1, _⟩ => rfl
theorem bidx_v2 (p : Fin 16384) (q : Fin 512) : idx_main_v1 (idx_main_v2 (ix2 p q)) = ix1 q :=
  funext fun a => by match a with | ⟨0, _⟩ => rfl
theorem bidx_v7 (p : Fin 16384) (q : Fin 216) : idx_main_v6 (idx_main_v7 (ix2 p q)) = ix1 q :=
  funext fun a => by match a with | ⟨0, _⟩ => rfl
theorem bidx_v12 (p : Fin 16384) (q : Fin 10) : idx_main_v11 (idx_main_v12 (ix2 p q)) = ix1 q :=
  funext fun a => by match a with | ⟨0, _⟩ => rfl
theorem bidx_v17 (p : Fin 16384) (q : Fin 2316) : idx_main_v16 (idx_main_v17 (ix2 p q)) = ix1 q :=
  funext fun a => by match a with | ⟨0, _⟩ => rfl

/-- The first hidden stage, as a matrix. -/
theorem stage1 (x0 : (⟨S16384x384, .f32⟩ : BufTy).Contents (Elt Ideal)) (x1 : (⟨S384x512, .f32⟩ : BufTy).Contents (Elt Ideal)) (x2 : (⟨S512, .f32⟩ : BufTy).Contents (Elt Ideal)) :
    mat (val_main_v4 (F := Ideal) x0 x1 x2) = Spec.layer (mat x0) (mat x1) (vec x2) := by
  funext p q
  show val_main_v4 (F := Ideal) x0 x1 x2 (ix2 p q) = _
  rw [val_main_v4_apply, val_main_v3_apply, val_main_v0_apply, val_main_v2_apply, val_main_v1_apply,
    val_main_call0_v0_apply, val_main_call0_cst_apply]
  simp only [lidx_v0, ridx_v0, bidx_v2]
  rfl

/-- The second hidden stage, over the first. -/
theorem stage2 (x0 : (⟨S16384x384, .f32⟩ : BufTy).Contents (Elt Ideal)) (x1 : (⟨S384x512, .f32⟩ : BufTy).Contents (Elt Ideal)) (x2 : (⟨S512, .f32⟩ : BufTy).Contents (Elt Ideal)) (x3 : (⟨S512x216, .f32⟩ : BufTy).Contents (Elt Ideal)) (x4 : (⟨S216, .f32⟩ : BufTy).Contents (Elt Ideal)) :
    mat (val_main_v9 (F := Ideal) x0 x1 x2 x3 x4) = Spec.layer (mat (val_main_v4 (F := Ideal) x0 x1 x2)) (mat x3) (vec x4) := by
  funext p q
  show val_main_v9 (F := Ideal) x0 x1 x2 x3 x4 (ix2 p q) = _
  rw [val_main_v9_apply, val_main_v8_apply, val_main_v5_apply, val_main_v7_apply, val_main_v6_apply,
    val_main_call1_v0_apply, val_main_call1_cst_apply]
  simp only [lidx_v5, ridx_v5, bidx_v7]
  rfl

/-- The third hidden stage, over the second. -/
theorem stage3 (x0 : (⟨S16384x384, .f32⟩ : BufTy).Contents (Elt Ideal)) (x1 : (⟨S384x512, .f32⟩ : BufTy).Contents (Elt Ideal)) (x2 : (⟨S512, .f32⟩ : BufTy).Contents (Elt Ideal)) (x3 : (⟨S512x216, .f32⟩ : BufTy).Contents (Elt Ideal)) (x4 : (⟨S216, .f32⟩ : BufTy).Contents (Elt Ideal))
    (x5 : (⟨S216x10, .f32⟩ : BufTy).Contents (Elt Ideal)) (x6 : (⟨S10, .f32⟩ : BufTy).Contents (Elt Ideal)) :
    mat (val_main_v14 (F := Ideal) x0 x1 x2 x3 x4 x5 x6)
      = Spec.layer (mat (val_main_v9 (F := Ideal) x0 x1 x2 x3 x4)) (mat x5) (vec x6) := by
  funext p q
  show val_main_v14 (F := Ideal) x0 x1 x2 x3 x4 x5 x6 (ix2 p q) = _
  rw [val_main_v14_apply, val_main_v13_apply, val_main_v10_apply, val_main_v12_apply, val_main_v11_apply,
    val_main_call2_v0_apply, val_main_call2_cst_apply]
  simp only [lidx_v10, ridx_v10, bidx_v12]
  rfl

/-- The result at (p, q): the head over the third stage. -/
theorem result_apply (x0 : (⟨S16384x384, .f32⟩ : BufTy).Contents (Elt Ideal)) (x1 : (⟨S384x512, .f32⟩ : BufTy).Contents (Elt Ideal)) (x2 : (⟨S512, .f32⟩ : BufTy).Contents (Elt Ideal))
    (x3 : (⟨S512x216, .f32⟩ : BufTy).Contents (Elt Ideal)) (x4 : (⟨S216, .f32⟩ : BufTy).Contents (Elt Ideal)) (x5 : (⟨S216x10, .f32⟩ : BufTy).Contents (Elt Ideal)) (x6 : (⟨S10, .f32⟩ : BufTy).Contents (Elt Ideal))
    (x7 : (⟨S10x2316, .f32⟩ : BufTy).Contents (Elt Ideal)) (x8 : (⟨S2316, .f32⟩ : BufTy).Contents (Elt Ideal)) (p : Fin 16384) (q : Fin 2316) :
    val_main_v18 (F := Ideal) x0 x1 x2 x3 x4 x5 x6 x7 x8 (ix2 p q)
      = Spec.head (mat (val_main_v14 (F := Ideal) x0 x1 x2 x3 x4 x5 x6)) (mat x7) (vec x8) p q := by
  rw [val_main_v18_apply, val_main_v15_apply, val_main_v17_apply, val_main_v16_apply]
  simp only [lidx_v15, ridx_v15, bidx_v17]
  rfl

/-- The reference's result is the whole-result function of its arguments. -/
theorem result_eq (x0 : (⟨S16384x384, .f32⟩ : BufTy).Contents (Elt Ideal)) (x1 : (⟨S384x512, .f32⟩ : BufTy).Contents (Elt Ideal)) (x2 : (⟨S512, .f32⟩ : BufTy).Contents (Elt Ideal))
    (x3 : (⟨S512x216, .f32⟩ : BufTy).Contents (Elt Ideal)) (x4 : (⟨S216, .f32⟩ : BufTy).Contents (Elt Ideal)) (x5 : (⟨S216x10, .f32⟩ : BufTy).Contents (Elt Ideal)) (x6 : (⟨S10, .f32⟩ : BufTy).Contents (Elt Ideal))
    (x7 : (⟨S10x2316, .f32⟩ : BufTy).Contents (Elt Ideal)) (x8 : (⟨S2316, .f32⟩ : BufTy).Contents (Elt Ideal)) :
    val_main_v18 (F := Ideal) x0 x1 x2 x3 x4 x5 x6 x7 x8 = G x0 x1 x2 x3 x4 x5 x6 x7 x8 := by
  funext i
  obtain ⟨p, q, rfl⟩ : ∃ (p : Fin 16384) (q : Fin 2316), i = ix2 p q := ⟨i 0, i 1, eq_ix2 i⟩
  refine (result_apply x0 x1 x2 x3 x4 x5 x6 x7 x8 p q).trans ?_
  exact congrArg (fun Fm => Spec.head Fm (mat x7) (vec x8) p q)
    ((stage3 x0 x1 x2 x3 x4 x5 x6).trans (congrArg (fun A => Spec.layer A (mat x5) (vec x6))
      ((stage2 x0 x1 x2 x3 x4).trans (congrArg (fun A => Spec.layer A (mat x3) (vec x4)) (stage1 x0 x1 x2)))))

end Cert.ReferenceIdeal.RefValue

end
-- ==== Proof.lean ====
/-
  The kernel computes what the reference computes, on the extended reals.

  Both programs are a four-layer network on 16384 rows of 384 features: three hidden layers (a matrix product, a bias
  added to every row, a clamp below at zero), 384 → 512 → 216 → 10, and a head, 10 → 2316, a product plus a bias. The
  reference applies each layer to all the rows at once. The kernel works on 16 blocks of 1024 rows; within a block it
  rounds its operands to a shorter float format before each product, which on the extended reals changes nothing, and
  computes the head in two chunks of columns, [0, 1280) and [1280, 2316), each against the matching columns of the head's
  weights and bias.

  Entry (i, j) of the result is, in both programs, the sum over k of the features of row i at k times the head's weight
  at (k, j), plus the head's bias at j; the features of row i are the three hidden layers applied to row i of x alone.
  No law beyond reading a sum at its index is used: the two programs add the same products in the same grouping, so the
  finiteness of the inputs is never called on.

  The kernel's side: the generated value leg names the result array after the run block by block; each block is what
  the body left in its output buffer, two stored chunks that cover it, each the network on the block's rows read at the
  chunk's place; a row of the network depends on that row of x alone, so block t is the restriction of the whole-result
  function to rows [1024 t, 1024 t + 1024), and the 16 blocks tile the result. The reference's side: its generated run,
  read one operation at a time, stage by stage. The frames are the generated ones (the reference's is its run with the
  result dropped); the kernel's idealization rewrote nothing, so there is nothing to preserve.
-/
import proofs.«122354_j26766236189308_2_alg».proof.Defs
import proofs.«122354_j26766236189308_2_alg».proof.Proof.Gen.Kernel
import proofs.«122354_j26766236189308_2_alg».proof.Proof.Gen.Kernel.Skeleton
import proofs.«122354_j26766236189308_2_alg».proof.Proof.Gen.Kernel.Launch
import proofs.«122354_j26766236189308_2_alg».proof.Proof.Gen.Kernel.Points
import proofs.«122354_j26766236189308_2_alg».proof.Proof.Gen.Kernel.Frame
import proofs.«122354_j26766236189308_2_alg».proof.Proof.Gen.KernelIdeal
import proofs.«122354_j26766236189308_2_alg».proof.Proof.Gen.KernelIdeal.Skeleton
import proofs.«122354_j26766236189308_2_alg».proof.Proof.Gen.KernelIdeal.Launch
import proofs.«122354_j26766236189308_2_alg».proof.Proof.Gen.KernelIdeal.Points
import proofs.«122354_j26766236189308_2_alg».proof.Proof.Gen.KernelIdeal.Frame
import proofs.«122354_j26766236189308_2_alg».proof.Proof.Gen.ReferenceIdeal
import proofs.«122354_j26766236189308_2_alg».proof.Proof.Gen.Pre_finite_inputs
import proofs.«122354_j26766236189308_2_alg».proof.Proof.Gen.KernelIdeal.Value
import proofs.«122354_j26766236189308_2_alg».proof.Proof.Gen.ReferenceIdeal.Run
import proofs.«122354_j26766236189308_2_alg».proof.Proof.Gen.ReferenceIdeal.Read
import proofs.«122354_j26766236189308_2_alg».proof.Proof.KernelValue
import proofs.«122354_j26766236189308_2_alg».proof.Proof.RefIsG
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories that agree on the arguments, both programs end with the result array at the whole-result function
    of the arguments: the kernel's blocks assembled, and the reference's stages read at an entry. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq]
  obtain ⟨h0, h1, h2, h3, h4, h5, h6, h7, h8⟩ := hagree c
  rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
